-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)

variable [Facts₀]

class Facts : Prop extends Facts₀ where

variable [Facts]
-- ==== Proof.LibScaledQuotient.lean ====
/-
  A positive real factor moves through the quotient of the extended reals, at every corner of the quotient.

  The quotient here is `Ideal.div`: `x · y⁻¹` when `y ≠ 0` (with `(±∞)⁻¹ = 0`), and by zero the infinity of the
  dividend's sign, `⊥` for a dividend that is not positive.  For a real `c > 0` and ANY extended reals `x`, `a`, `b`

      x · ((c · a) / b) = (c · x) · (a / b).

  Off zero this is commutativity and associativity of the product, which hold on all of `EReal`.  At `b = 0` both
  quotients are the same infinity, because `c · a` is positive exactly when `a` is; and `x · (±∞)` is one of `⊤`, `0`,
  `⊥`, each of which the factor `c` fixes.  No finiteness of `x`, `a` or `b` is used.

  Also here: the f32 pattern `0x40000000` denotes the real number 2.
-/
import Idealize.ShloMosaic.PureOps.Ideal

noncomputable section

namespace Idealize.ShloMosaic.ScaledQuotient

open Idealize.ShloMosaic

/-- The f32 pattern of `2.0` denotes the real `2`. -/
theorem ofBits_two_f32 : Ideal.ofBits .f32 0x40000000#32 = ((2 : ℝ) : EReal) := by
  simp [Ideal.ofBits, Ideal.ieee, -EReal.coe_mul]; norm_num

/-- A positive real multiple of an extended real is positive exactly when the extended real is. -/
theorem coe_mul_pos_iff {c : ℝ} (hc : 0 < c) (a : EReal) : 0 < (c : EReal) * a ↔ 0 < a := by
  induction a with
  | bot => rw [EReal.coe_mul_bot_of_pos hc]
  | coe r => rw [← EReal.coe_mul, EReal.coe_pos, EReal.coe_pos]; exact mul_pos_iff_of_pos_left hc
  | top => rw [EReal.coe_mul_top_of_pos hc]

/-- `x · ⊤` is `⊤`, `0` or `⊥`, and a positive real factor fixes each. -/
theorem coe_mul_mul_top {c : ℝ} (hc : 0 < c) (x : EReal) : (c : EReal) * (x * ⊤) = x * ⊤ := by
  rcases lt_trichotomy x 0 with h | h | h
  · rw [EReal.mul_top_of_neg h, EReal.coe_mul_bot_of_pos hc]
  · rw [h, zero_mul, mul_zero]
  · rw [EReal.mul_top_of_pos h, EReal.coe_mul_top_of_pos hc]

/-- `x · ⊥` is `⊥`, `0` or `⊤`, and a positive real factor fixes each. -/
theorem coe_mul_mul_bot {c : ℝ} (hc : 0 < c) (x : EReal) : (c : EReal) * (x * ⊥) = x * ⊥ := by
  rcases lt_trichotomy x 0 with h | h | h
  · rw [EReal.mul_bot_of_neg h, EReal.coe_mul_top_of_pos hc]
  · rw [h, zero_mul, mul_zero]
  · rw [EReal.mul_bot_of_pos h, EReal.coe_mul_bot_of_pos hc]

/-- A positive real factor moves from the dividend of a quotient to a factor outside it: for every extended real
    `x`, `a`, `b` (zero and infinite `b` included), `x · ((c · a) / b) = (c · x) · (a / b)`. -/
theorem mul_div_scale {c : ℝ} (hc : 0 < c) (x a b : EReal) :
    x * Ideal.div ((c : EReal) * a) b = ((c : EReal) * x) * Ideal.div a b := by
  unfold Ideal.div
  by_cases hb : b = 0
  · rw [if_pos hb, if_pos hb, mul_assoc]
    by_cases ha : 0 < a
    · rw [if_pos ((coe_mul_pos_iff hc a).2 ha), if_pos ha]
      exact (coe_mul_mul_top hc x).symm
    · rw [if_neg (fun h => ha ((coe_mul_pos_iff hc a).1 h)), if_neg ha]
      exact (coe_mul_mul_bot hc x).symm
  · rw [if_neg hb, if_neg hb, mul_assoc, mul_assoc, mul_left_comm]

end Idealize.ShloMosaic.ScaledQuotient

end
-- ==== Proof.Reflection.lean ====
/-
  The reflection of the rows of `z` in the rows of `v`, as one function of the two [16384, 4096] arrays.

  For row `p` write `⟨a, b⟩ₚ = ∑ₖ a[p,k] · b[p,k]` (4096 terms).  The result at `(p, q)` is

      z[p,q] − v[p,q] · ((2 · ⟨v, z⟩ₚ) / ⟨v, v⟩ₚ)

  on the extended reals, the quotient being `Ideal.div` (so a zero row of `v` gives the quotient's corner value, the
  same in every arrangement below).  The same formula is stated for a [n, 4096] block of rows, because an entry depends
  on its own row only: a block of whole rows reflects by itself.

  A second arrangement of the same number doubles `v[p,q]` instead of the row product and starts each row sum from the
  f32 zero: `z[p,q] − (2 · v[p,q]) · ((0 + ⟨v, z⟩ₚ) / (0 + ⟨v, v⟩ₚ))`.  It equals the first for all extended reals: the
  zero word denotes `0`, and the positive factor `2` moves through the quotient (`mul_div_scale`).
-/
import Idealize.ShloMosaic.PureOps.Ideal
import Idealize.ShloMosaic.PureOps.Ideal.Laws
import Idealize.ShloMosaic.Lib.ValueIdx
import proofs.«157372_j1580547968164_2_alg».proof.Proof.LibScaledQuotient

noncomputable section

open scoped BigOperators

namespace Cert.Reflection

open Idealize.ShloMosaic Idealize.ShloMosaic.ValueIdx Idealize.ShloMosaic.ScaledQuotient

/-- The product of row `p` of `a` with row `p` of `b`: `∑ₖ a[p,k] · b[p,k]`. -/
def rowDot {n : Nat} (a b : (⟨2, ![n, 4096]⟩ : Shape).Idx → EReal) (p : Fin n) : EReal :=
  ∑ k : Fin 4096, a (ix2 p k) * b (ix2 p k)

/-- The reflected entry at row `p`, column `q`: `z[p,q] − v[p,q] · ((2 · ⟨v, z⟩ₚ) / ⟨v, v⟩ₚ)`. -/
def reflectAt {n : Nat} (v z : (⟨2, ![n, 4096]⟩ : Shape).Idx → EReal) (p : Fin n) (q : Fin 4096) : EReal :=
  z (ix2 p q) - v (ix2 p q) * Ideal.div (Ideal.ofBits .f32 0x40000000#32 * rowDot v z p) (rowDot v v p)

/-- The reflected array. -/
def reflect (v z : (⟨2, ![16384, 4096]⟩ : Shape).Idx → EReal) : (⟨2, ![16384, 4096]⟩ : Shape).Idx → EReal :=
  fun i => reflectAt v z (i 0) (i 1)

theorem reflect_ix2 (v z : (⟨2, ![16384, 4096]⟩ : Shape).Idx → EReal) (p : Fin 16384) (q : Fin 4096) :
    reflect v z (ix2 p q) = reflectAt v z p q := rfl

/-- The arrangement that doubles the entry of `v` and starts the row sums from the f32 zero is the same number. -/
theorem doubledEntry_eq {n : Nat} (v z : (⟨2, ![n, 4096]⟩ : Shape).Idx → EReal) (p : Fin n) (q : Fin 4096) :
    z (ix2 p q) - (Ideal.ofBits .f32 0x40000000#32 * v (ix2 p q))
        * Ideal.div (Ideal.ofBits .f32 0x00000000#32 + rowDot v z p) (Ideal.ofBits .f32 0x00000000#32 + rowDot v v p)
      = reflectAt v z p q := by
  unfold reflectAt
  rw [Ideal.ofBits_zero_f32, zero_add, zero_add, ofBits_two_f32, mul_div_scale (by norm_num)]

end Cert.Reflection

end
-- ==== Proof.BlockReflects.lean ====
/-
  One grid point's block.  The body loads a [256, 4096] block of `v` and the block of `z` under it, forms for each of
  the 256 rows the two lane sums `⟨v, z⟩ᵣ` and `⟨v, v⟩ᵣ` over the 4096 columns, and stores
  `z[r,q] − v[r,q] · ((2 · ⟨v, z⟩ᵣ) / ⟨v, v⟩ᵣ)`: the reflection of the block of `z` in the block of `v`, row by row.
  The generated value leg already reads the stored block index by index with the two lane sums kept whole (`E2`);
  what is added here is that a lane sum at row `r` is the sum over the 4096 entries of that row.
-/
import proofs.«157372_j1580547968164_2_alg».proof.Proof.Gen.KernelIdeal.Value
import proofs.«157372_j1580547968164_2_alg».proof.Proof.Reflection
import Idealize.ShloMosaic.PureOps.Ideal.Laws
import Idealize.ShloMosaic.Lib.ValueIdx

noncomputable section

open scoped BigOperators

namespace Cert.KernelIdeal.BlockReflects

open Cert.KernelIdeal Cert.KernelIdeal.Gen Cert.KernelIdeal.Value Cert.Reflection
open Idealize.ShloMosaic Idealize.ShloMosaic.ValueIdx

/-- The lane sum of a [256, 4096] block at row `r` is the sum of the row's 4096 entries. -/
theorem laneSum (src : FVec Ideal S256x4096 .f32) (hφ : FKind.Formats .f32)
    (hacc : (0x00000000#32 : BitVec 32) = FKind.add.neutral .f32 hφ) (r : Fin 256) :
    multiReduction (F := Ideal) .add [1] S256 src 0x00000000#32 reduces_S256x4096_S256 hφ hacc (ix1 r)
      = ∑ k : Fin 4096, src (ix2 r k) := by
  refine (Ideal.multiReduction_add_single src 0x00000000#32 reduces_S256x4096_S256 hφ hacc (ix1 r)).trans ?_
  exact Finset.sum_congr rfl fun k _ => congrArg src
    (funext fun a => Fin.ext (by match a with | ⟨0, _⟩ => rfl | ⟨1, _⟩ => rfl))

theorem zeroOffset : (![0, 0] : Fin 2 → Nat) = fun _ => 0 := funext fun a => by fin_cases a <;> rfl

/-- What the body leaves in the output block from loaded blocks `W` of `v` and `Z` of `z`: its one store covers the
    whole block, and the loads read whole blocks, so it is the stored value read index by index. -/
theorem stored_eq (W Z : Vec Ideal S256x4096 .f32) : out0_2 W Z = E2 (F := Ideal) Z W := by
  unfold out0_2
  simp only [View.ld_unit_zero (S := S256x4096) zeroOffset]
  exact funext (canon2_eq Z W)

/-- What the point stores at `(r, q)` of its block, from the loaded block `Z` of `z` and the loaded block `W` of `v`,
    is the reflected entry of the two blocks. -/
theorem block_eq (Z W : Vec Ideal S256x4096 .f32) (r : Fin 256) (q : Fin 4096) :
    E2 (F := Ideal) Z W (ix2 r q) = reflectAt (n := 256) W Z r q := by
  have e0 : ix2_0 (ix2 r q) = ix2 r q :=
    funext fun a => Fin.ext (by match a with | ⟨0, _⟩ => rfl | ⟨1, _⟩ => rfl)
  have e1 : ix2_1 (ix2 r q) = ix2 r q :=
    funext fun a => Fin.ext (by match a with | ⟨0, _⟩ => rfl | ⟨1, _⟩ => rfl)
  have e2 : ix2_2 (ix2 r q) = ix1 r := funext fun a => Fin.ext (by match a with | ⟨0, _⟩ => rfl)
  have e3 : ix2_3 (ix2 r q) = ix1 r := funext fun a => Fin.ext (by match a with | ⟨0, _⟩ => rfl)
  have s1 := laneSum (mulf (F := Ideal) W Z) (.inl rfl) rfl r
  have s2 := laneSum (mulf (F := Ideal) W W) (.inl rfl) rfl r
  show Z (ix2_0 (ix2 r q)) - W (ix2_1 (ix2 r q))
      * Ideal.div (Ideal.ofBits .f32 0x40000000#32
          * multiReduction (F := Ideal) .add [1] S256 (mulf W Z) 0x00000000#32 reduces_S256x4096_S256 (.inl rfl) rfl
              (ix2_2 (ix2 r q)))
        (multiReduction (F := Ideal) .add [1] S256 (mulf W W) 0x00000000#32 reduces_S256x4096_S256 (.inl rfl) rfl
          (ix2_3 (ix2 r q))) = _
  rw [e0, e1, e2, e3, s1, s2]
  rfl

end Cert.KernelIdeal.BlockReflects

end
-- ==== Proof.KernelReflects.lean ====
/-
  From blocks to the array.  Grid point `t` (of 64) stages rows `256·t … 256·t + 255` of `v` and of `z`, all 4096 columns,
  and writes the same rows of the result.  An entry of the reflected array depends only on its own row of `v` and `z`,
  so the block that point `t` writes — the reflection of its two loaded blocks — is exactly rows `256·t …` of the
  reflected array; and the 64 blocks tile the 16384 rows (row `p` is in block `p / 256`), so after the run the result
  array IS the reflected array of the two arguments.
-/
import proofs.«157372_j1580547968164_2_alg».proof.Proof.Gen.KernelIdeal.Value
import proofs.«157372_j1580547968164_2_alg».proof.Proof.BlockReflects
import Idealize.ShloMosaic.Lib.Pipeline.Value

noncomputable section

open scoped BigOperators

namespace Cert.KernelIdeal.Reflects

open Cert.KernelIdeal Cert.KernelIdeal.Gen Cert.KernelIdeal.Value Cert.KernelIdeal.BlockReflects Cert.Reflection
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- All three windows move together: at point `t` each is at block row `t`, block column 0 (decided over the 64 points). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The block of `v` at point `t`, read at `x`, is `v` at row `256·t + x₀`, column `x₁`. -/
theorem vBlock_apply (c : Dev nD) (t : Fin cfg0.N) (x : S256x4096.Idx) (k : S16384x4096.Idx)
    (hk0 : (k 0).val = 256 * t.val + (x 0).val) (hk1 : (k 1).val = (x 1).val) :
    (iblk m c 0 t : Vec Ideal S256x4096 .f32) x = (V m c main_arg0 : S16384x4096.Idx → Elt Ideal .f32) k := by
  obtain ⟨h0, h1, -⟩ := blockIndex t
  unfold iblk
  rw [View.read_apply]
  show V m c main_arg0 _ = V m c main_arg0 _
  congr 1
  funext a
  apply Fin.ext
  match a with
  | ⟨0, _⟩ => show win0_0.index t (0 : Fin 2) * 256 + 1 * (x 0).val = (k 0).val; rw [h0, hk0]; omega
  | ⟨1, _⟩ => show win0_0.index t (1 : Fin 2) * 4096 + 1 * (x 1).val = (k 1).val; rw [h1, hk1]; omega

/-- The block of `z` at point `t`, read at `x`, is `z` at row `256·t + x₀`, column `x₁`. -/
theorem zBlock_apply (c : Dev nD) (t : Fin cfg0.N) (x : S256x4096.Idx) (k : S16384x4096.Idx)
    (hk0 : (k 0).val = 256 * t.val + (x 0).val) (hk1 : (k 1).val = (x 1).val) :
    (iblk m c 1 t : Vec Ideal S256x4096 .f32) x = (V m c main_arg1 : S16384x4096.Idx → Elt Ideal .f32) k := by
  obtain ⟨-, -, h0, h1, -⟩ := blockIndex t
  unfold iblk
  rw [View.read_apply]
  show V m c main_arg1 _ = V m c main_arg1 _
  congr 1
  funext a
  apply Fin.ext
  match a with
  | ⟨0, _⟩ => show win0_1.index t (0 : Fin 2) * 256 + 1 * (x 0).val = (k 0).val; rw [h0, hk0]; omega
  | ⟨1, _⟩ => show win0_1.index t (1 : Fin 2) * 4096 + 1 * (x 1).val = (k 1).val; rw [h1, hk1]; omega

/-- Row `r` of point `t`'s block is row `256·t + r` of the array. -/
def arrayRow (t : Fin cfg0.N) (r : Fin 256) : Fin 16384 :=
  ⟨256 * t.val + r.val, by have h : t.val < 64 := N_0 ▸ t.isLt; have := r.isLt; omega⟩

/-- The reflection of the two blocks at point `t` is the reflected array at the block's rows. -/
theorem blockReflect_eq (c : Dev nD) (t : Fin cfg0.N) (r : Fin 256) (q : Fin 4096) :
    reflectAt (n := 256) (iblk m c 0 t : Vec Ideal S256x4096 .f32) (iblk m c 1 t : Vec Ideal S256x4096 .f32) r q
      = reflectAt (n := 16384) (V m c main_arg0) (V m c main_arg1) (arrayRow t r) q := by
  have a0 : ∀ k : Fin 4096, (iblk m c 0 t : Vec Ideal S256x4096 .f32) (ix2 r k) = V m c main_arg0 (ix2 (arrayRow t r) k) :=
    fun k => vBlock_apply m c t (ix2 r k) (ix2 (arrayRow t r) k) rfl rfl
  have a1 : ∀ k : Fin 4096, (iblk m c 1 t : Vec Ideal S256x4096 .f32) (ix2 r k) = V m c main_arg1 (ix2 (arrayRow t r) k) :=
    fun k => zBlock_apply m c t (ix2 r k) (ix2 (arrayRow t r) k) rfl rfl
  unfold reflectAt rowDot
  simp only [a0, a1]

/-- WHAT POINT `t` WRITES BACK is block `t` of the reflected array of the two arguments as the region finds them. -/
theorem flushed_eq (c : Dev nD) (t : Fin cfg0.N) :
    (dats m 0 c).flushed 2 t
      = ((cfg0.win 2).blk t).view.read (Elt Ideal) (reflect (V m c main_arg0) (V m c main_arg1)) := by
  obtain ⟨-, -, -, -, h0, h1⟩ := blockIndex t
  rw [flushed2, stored_eq (iblk m c 0 t) (iblk m c 1 t)]
  funext j
  show E2 (F := Ideal) (iblk m c 1 t) (iblk m c 0 t) j
    = reflect (V m c main_arg0) (V m c main_arg1) (((cfg0.win 2).blk t).view.emb j)
  obtain ⟨r, q, rfl⟩ : ∃ (r : Fin 256) (q : Fin 4096), j = ix2 r q := ⟨j 0, j 1, eq_ix2 j⟩
  refine (block_eq (iblk m c 1 t) (iblk m c 0 t) r q).trans ?_
  refine (blockReflect_eq m c t r q).trans ?_
  have hemb : ((cfg0.win 2).blk t).view.emb (ix2 r q) = ix2 (arrayRow t r) q := by
    funext a
    apply Fin.ext
    match a with
    | ⟨0, _⟩ => show win0_2.index t (0 : Fin 2) * 256 + 1 * r.val = 256 * t.val + r.val; rw [h0]; omega
    | ⟨1, _⟩ => show win0_2.index t (1 : Fin 2) * 4096 + 1 * q.val = q.val; rw [h1]; omega
  rw [hemb, reflect_ix2]

/-- An index of the array is in point `t`'s block iff each coordinate is in the block's range on its axis. -/
theorem mem_block (t : Fin cfg0.N) (i : S16384x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0).slice (win0_2.rect t)).set ↔ _
  rw [View.set_slice_whole, Rect.mem_set_unit]
  exact Iff.rfl

/-- Every index of the result array is in some point's block: row `p` in block `p / 256`. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 64 := N_0
  have ht : (i 0).val / 256 < cfg0.N := by rw [hN]; omega
  obtain ⟨-, -, -, -, h0, h1⟩ := blockIndex ⟨(i 0).val / 256, ht⟩
  refine ⟨⟨(i 0).val / 256, ht⟩, flush0_2 _, ?_⟩
  rw [mem_block]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [h0]
    show (i 0).val / 256 * 256 ≤ (i 0).val ∧ (i 0).val < (i 0).val / 256 * 256 + 256
    omega
  | ⟨1, _⟩ =>
    show win0_2.index ⟨(i 0).val / 256, ht⟩ (1 : Fin 2) * 4096 ≤ (i 1).val
      ∧ (i 1).val < win0_2.index ⟨(i 0).val / 256, ht⟩ (1 : Fin 2) * 4096 + 4096
    rw [h1]
    omega

/-- THE RESULT ARRAY after the run is the reflected array of the two arguments. -/
theorem final (c : Dev nD) :
    (dats m 0 c).arrAt 2 cfg0.N = reflect (V m c main_arg0) (V m c main_arg1) :=
  (dats m 0 c).arrAt_eq_of_cover 2 (reflect (V m c main_arg0) (V m c main_arg1)) (fun t _ => flushed_eq m c t) covered

/-- The kernel's run, read: the result array at the reflected array of the arguments, the arguments unchanged. -/
theorem run : θ_run defs (onTc (τ := τ) (main (F := Ideal))) ⟨m, fun _ => 0, ρ⟩ fun r => ∀ c : Dev nD,
      r.2.mem ((c : Thread nD τ).loc main_v0)
        = reflect (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Reflects

end
-- ==== Proof.ReferenceReflects.lean ====
/-
  The reference program's result is the reflected array.

  Its last stage, read one operation at a time at the index `(p, q)`: the subtraction reads `z[p,q]` and the product of
  `2 · v[p,q]` (the broadcast scalar `2` times the entry) with the broadcast quotient; the quotient's column entry for
  row `p` is the row sum of `v · z` over the row sum of `v · v`, each sum started from the f32 zero and taken over the
  4096 columns of row `p`.  That is the second arrangement of `Cert.Reflection`, hence the reflected entry.
-/
import proofs.«157372_j1580547968164_2_alg».proof.Proof.Gen.ReferenceIdeal.Read
import proofs.«157372_j1580547968164_2_alg».proof.Proof.Reflection

noncomputable section

open scoped BigOperators

namespace Cert.ReferenceIdeal.Reflects

open Cert.ReferenceIdeal Cert.ReferenceIdeal.Read Cert.Reflection
open Idealize.ShloMosaic Idealize.ShloMosaic.ValueIdx

/-- The column entry of row `p`, followed back through the two broadcasts to the row sum, reads column `k` of row `p`. -/
theorem rowIndex_vz (p : Fin 16384) (q k : Fin 4096) :
    idx_main_v1 (idx_main_v2 (idx_main_v9 (ix2 p q))) k = ix2 p k :=
  funext fun a => Fin.ext (by match a with | ⟨0, _⟩ => rfl | ⟨1, _⟩ => rfl)

theorem rowIndex_vv (p : Fin 16384) (q k : Fin 4096) :
    idx_main_v4 (idx_main_v5 (idx_main_v9 (ix2 p q))) k = ix2 p k :=
  funext fun a => Fin.ext (by match a with | ⟨0, _⟩ => rfl | ⟨1, _⟩ => rfl)

/-- The reference's last stage is the reflected array of its two arguments. -/
theorem result_eq (x0 x1 : FVec Ideal S16384x4096 .f32) : val_main_v11 (F := Ideal) x0 x1 = reflect x0 x1 := by
  funext i
  obtain ⟨p, q, rfl⟩ : ∃ (p : Fin 16384) (q : Fin 4096), i = ix2 p q := ⟨i 0, i 1, eq_ix2 i⟩
  rw [reflect_ix2, ← doubledEntry_eq]
  rw [val_main_v11_apply, val_main_v10_apply, val_main_v7_apply, val_main_v6_apply, val_main_cst_1_apply,
    val_main_v9_apply, val_main_v8_apply, val_main_v2_apply, val_main_v5_apply, val_main_v1_apply, val_main_v4_apply,
    val_main_cst_apply, val_main_cst_0_apply]
  simp only [val_main_v0_apply, val_main_v3_apply, rowIndex_vz, rowIndex_vv, Ideal.subf_def, Ideal.mulf_def,
    Ideal.hostDivf_def, Ideal.ofBits_def]
  rfl

end Cert.ReferenceIdeal.Reflects

end
-- ==== Proof.lean ====
/-
  The kernel reflects each row of `z` in the same row of `v`, for two [16384, 4096] arrays: with
  `⟨a, b⟩ₚ = ∑ₖ a[p,k] · b[p,k]` over the 4096 columns,

      out[p,q] = z[p,q] − v[p,q] · ((2 · ⟨v, z⟩ₚ) / ⟨v, v⟩ₚ)      (the kernel: 64 grid points, 256 whole rows each),
      out[p,q] = z[p,q] − (2 · v[p,q]) · (⟨v, z⟩ₚ / ⟨v, v⟩ₚ)       (the reference, on whole arrays),

  read on the extended reals, where every sum and product is exact.  The two agree entry by entry for ALL extended-real
  inputs: the reference's row sums start from the f32 zero, which denotes `0`; and the positive factor `2` moves from the
  dividend of the quotient to a factor outside it at every corner of the quotient, a zero or infinite row norm included
  (`ScaledQuotient.mul_div_scale`).  So the precondition (finite inputs) is not used by the value claim.

  The kernel side: an entry depends on its own row only, so the block a grid point writes — the reflection of the two
  blocks it loaded — is the corresponding 256 rows of the reflected array, and the 64 blocks tile the rows
  (`Cert.KernelIdeal.Reflects.run`).  The reference side: its last stage read operation by operation at an index
  (`Cert.ReferenceIdeal.Reflects.result_eq`).  The three frames are the generated ones (the reference's is its run with
  the result dropped), and the idealization rewrote nothing, so `preserves` has nothing to state.
-/
import proofs.«157372_j1580547968164_2_alg».proof.Defs
import proofs.«157372_j1580547968164_2_alg».proof.Proof.Gen.Kernel
import proofs.«157372_j1580547968164_2_alg».proof.Proof.Gen.Kernel.Skeleton
import proofs.«157372_j1580547968164_2_alg».proof.Proof.Gen.Kernel.Launch
import proofs.«157372_j1580547968164_2_alg».proof.Proof.Gen.Kernel.Points
import proofs.«157372_j1580547968164_2_alg».proof.Proof.Gen.Kernel.Frame
import proofs.«157372_j1580547968164_2_alg».proof.Proof.Gen.KernelIdeal
import proofs.«157372_j1580547968164_2_alg».proof.Proof.Gen.KernelIdeal.Skeleton
import proofs.«157372_j1580547968164_2_alg».proof.Proof.Gen.KernelIdeal.Launch
import proofs.«157372_j1580547968164_2_alg».proof.Proof.Gen.KernelIdeal.Points
import proofs.«157372_j1580547968164_2_alg».proof.Proof.Gen.KernelIdeal.Frame
import proofs.«157372_j1580547968164_2_alg».proof.Proof.Gen.ReferenceIdeal
import proofs.«157372_j1580547968164_2_alg».proof.Proof.Gen.Pre_finite_inputs
import proofs.«157372_j1580547968164_2_alg».proof.Proof.Gen.KernelIdeal.Value
import proofs.«157372_j1580547968164_2_alg».proof.Proof.Gen.ReferenceIdeal.Run
import proofs.«157372_j1580547968164_2_alg».proof.Proof.Gen.ReferenceIdeal.Read
import Idealize.ShloMosaic.Adequacy
import Idealize.ShloMosaic.Init
import proofs.«157372_j1580547968164_2_alg».proof.Proof.KernelReflects
import proofs.«157372_j1580547968164_2_alg».proof.Proof.ReferenceReflects

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reflected array of their (agreeing) arguments. -/
theorem algebraic : Cert.algebraic_KernelIdeal_ReferenceIdeal := by
  intro m ρ m' ρ' _ hagree
  refine ⟨_, Cert.KernelIdeal.Reflects.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Reflects.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
